-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel

variable [Facts]

def fn {F : FTy → Type} [FloatOps F] (main_arg0 : FVec F S8x2048x64 .f32) (main_arg1 : FVec F S8x2048x64 .f32) (main_arg2 : FVec F S8x2048x64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x64 .f32 := Host.absf main_arg2
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_c_3 : IVec S_ 1 := constantI S_ 1 1#1
  let main_v12 : IVec S_ 1 := (fun x v => Host.reduce IntOp.andi x v reducesTo_S8x2048x64_S_d0_1_2 h_S_) main_v11 main_c_3
  let main_v13 : IVec S_ 1 := andi main_v8 main_v12
  main_v13
-- ==== Kernel.lean ====
abbrev S8x2048x64 : Shape := ⟨3, ![8, 2048, 64]⟩
abbrev S8x2048x2048 : Shape := ⟨3, ![8, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S256x2048 : Shape := ⟨2, ![256, 2048]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048x64, .f32⟩
  | .hbm, ⟨4, _⟩ => ⟨S8x2048x2048, .f32⟩
  | .hbm, ⟨5, _⟩ => ⟨S8x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S256x64_S256 : S256x64.Reduces [1] S256
  shapeCasts_S256_S256x1 : S256.ShapeCasts S256x1
  broadcasts_S256x1_S256x64 : S256x1.Broadcasts S256x64
  reduces_S2048x64_S2048 : S2048x64.Reduces [1] S2048
  shapeCasts_S2048_S2048x1 : S2048.ShapeCasts S2048x1
  broadcasts_S2048x1_S2048x64 : S2048x1.Broadcasts S2048x64
  bitsLt_bf16_f32 : FTy.bits .bf16 < FTy.bits .f32
  reduces_S256x2048_S256 : S256x2048.Reduces [1] S256
  broadcasts_S256x1_S256x2048 : S256x1.Broadcasts S256x2048
  shapeCasts_S256x64_S1x256x64 : S256x64.ShapeCasts S1x256x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S8x2048x64.size a
  hwx0_0 : ∀ i : grid0.Coords, EltTy.bits .f32 = 32 ∨ (Rect.block (s := S8x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .f32 = 32 ∨ (Rect.block (s := S8x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S8x2048x64.size a
  hwx0_3 : ∀ i : grid0.Coords, EltTy.bits .f32 = 32 ∨ (Rect.block (s := S8x2048x64) S1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2048x2048.size a
  hwx0_4 : ∀ i : grid0.Coords, EltTy.bits .f32 = 32 ∨ (Rect.block (s := S8x2048x2048) S1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x2048x2048.size a
  hwx0_5 : ∀ i : grid0.Coords, EltTy.bits .f32 = 32 ∨ (Rect.block (s := S8x2048x2048) S1x256x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048x64, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S8x2048x64, .f32⟩
  | .hbm, ⟨12, _⟩ => ⟨S8x2048x64, .f32⟩
  | .hbm, ⟨13, _⟩ => ⟨S8x2048x64, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x64, .f32⟩
  | .hbm, ⟨22, _⟩ => ⟨S8x2048x64, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]

class Facts₀ : Prop where
  reducesTo_S8x2048x64_S8x2048_d2 : S8x2048x64.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x64_0_1_2 : S8x2048x1.BroadcastsInDim S8x2048x64 (![0, 1, 2] : Fin 3 → Fin S8x2048x64.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Attn.lean ====
/-
  Attention over unit rows, read one query row at a time, on the extended reals.

  A row `x` of 64 entries has the norm `max (sqrt (Σ_d x_d²)) eps` and the unit row `x_d / norm`. The score of a query
  row against a key row is the inner product of their unit rows divided by the temperature. Over the 2048 keys a query's
  scores `s` are shifted by their maximum `top s` (the fold of `max` from the starting value), and
  `logSoftmax s j = (s_j - top s) - log (Σ_j' exp (s_j' - top s))`; the attention weight is its exponential and the
  output row is `Σ_j weight_j · V_j`. Every operation is the exact one on the extended reals, so no identity of real
  analysis is used: the two programs are compared as the same composition of these functions.
-/
import Idealize.ShloMosaic.PureOps.Ideal.Laws
import Idealize.ShloMosaic.Lib.ValueIdx

noncomputable section

namespace Cert.Attn

open Idealize.ShloMosaic

/-- The floor under a row's norm: the f32 nearest to 1e-12, as an extended real. -/
def eps : EReal := Ideal.ofBits .f32 0x2B8CBCCC#32

/-- The temperature the inner products are divided by: 25. -/
def temp : EReal := Ideal.ofBits .f32 0x41C80000#32

/-- The value a row's maximum is folded from: the f32 word of minus infinity. -/
def start : EReal := Ideal.ofBits .f32 0xFF800000#32

/-- A row's norm, floored: `max (sqrt (Σ_d x_d · x_d)) eps`. -/
def rowNorm (x : Fin 64 → EReal) : EReal := max (Ideal.sqrt (∑ d : Fin 64, x d * x d)) eps

/-- The unit row: each entry over the floored norm. -/
def unit (x : Fin 64 → EReal) (d : Fin 64) : EReal := Ideal.div (x d) (rowNorm x)

/-- A query row against a key row: the inner product of the unit rows over the temperature. -/
def score (qr kr : Fin 64 → EReal) : EReal := Ideal.div (∑ d : Fin 64, unit qr d * unit kr d) temp

/-- The maximum of a query's 2048 scores, folded from `start`. -/
def top (s : Fin 2048 → EReal) : EReal := (Finset.univ : Finset (Fin 2048)).fold max start s

/-- The logarithm of the softmax of a row of scores, computed from the scores shifted by their maximum. -/
def logSoftmax (s : Fin 2048 → EReal) (j : Fin 2048) : EReal :=
  (s j - top s) - Ideal.log (∑ j' : Fin 2048, Ideal.exp (s j' - top s))

/-- The log-weights of a query row over the key rows `K`. -/
def logAttn (qr : Fin 64 → EReal) (K : Fin 2048 → Fin 64 → EReal) (j : Fin 2048) : EReal :=
  logSoftmax (fun j' => score qr (K j')) j

/-- The weights: the exponential of the log-weights. -/
def attn (qr : Fin 64 → EReal) (K : Fin 2048 → Fin 64 → EReal) (j : Fin 2048) : EReal := Ideal.exp (logAttn qr K j)

/-- The output row: the weights against the value rows `V`. -/
def out (qr : Fin 64 → EReal) (K V : Fin 2048 → Fin 64 → EReal) (d : Fin 64) : EReal :=
  ∑ j : Fin 2048, attn qr K j * V j d

/-! ## The three results as whole arrays

A batch `b` of an `[8, 2048, 64]` array is its 2048 rows of 64 entries. Query row `(b, r)` meets the key rows and the value
rows of the same batch. -/

open Idealize.ShloMosaic.ValueIdx in
/-- The rows of batch `b`. -/
def rows (x : (⟨3, ![8, 2048, 64]⟩ : Shape).Idx → EReal) (b : Fin 8) : Fin 2048 → Fin 64 → EReal :=
  fun r d => x (ix3 b r d)

/-- The outputs: entry `(b, r, d)` is feature `d` of the output row of query `(b, r)`. -/
def outArr (q k v : (⟨3, ![8, 2048, 64]⟩ : Shape).Idx → EReal) : (⟨3, ![8, 2048, 64]⟩ : Shape).Idx → EReal :=
  fun i => out (rows q (i 0) (i 1)) (rows k (i 0)) (rows v (i 0)) (i 2)

/-- The weights: entry `(b, r, j)` is the weight of key `j` for query `(b, r)`. -/
def attnArr (q k : (⟨3, ![8, 2048, 64]⟩ : Shape).Idx → EReal) : (⟨3, ![8, 2048, 2048]⟩ : Shape).Idx → EReal :=
  fun i => attn (rows q (i 0) (i 1)) (rows k (i 0)) (i 2)

/-- The log-weights. -/
def logAttnArr (q k : (⟨3, ![8, 2048, 64]⟩ : Shape).Idx → EReal) : (⟨3, ![8, 2048, 2048]⟩ : Shape).Idx → EReal :=
  fun i => logAttn (rows q (i 0) (i 1)) (rows k (i 0)) (i 2)

/-- A fold of `max` is above the value it starts from, so taking the maximum with that value again changes nothing. -/
theorem max_start_top (s : Fin 2048 → EReal) : max start (top s) = top s :=
  max_eq_right ((Finset.le_fold_max _).mpr (Or.inl le_rfl))

end Cert.Attn

end
-- ==== Proof.LibRowOps.lean ====
/-
  Reductions along the last axis, at the ideal values, read at an index given by coordinates. In an `[R, C]` matrix the
  sum and the maximum along the second axis at row `p` are the sum and the fold of `max` over `k : Fin C` of the entries
  `(p, k)` — the reduced index `p` with the coordinate `k` inserted on the dropped axis is `(p, k)` (`lift_row`,
  `rowSum_apply`, `rowMax_apply`: a kernel's `vector.multi_reduction`). In an `[A, B, C]` array the host's maximum along
  the last axis at `(a, b)` is the fold of `max`, from the initial value, over `k : Fin C` of the entries `(a, b, k)`
  (`lift_last3`, `hostMax_last3`: a `stablehlo.reduce` with a maximum body). All are stated for any extents.
-/
import Idealize.ShloMosaic.PureOps.Ideal.Laws
import Idealize.ShloMosaic.Lib.ValueIdx

noncomputable section

namespace Cert.RowOps

open Idealize.ShloMosaic Idealize.ShloMosaic.ValueIdx

/-- Row `p` with the column `k` inserted is the index `(p, k)`. -/
theorem lift_row {R C : ℕ} (h : (⟨2, ![R, C]⟩ : Shape).Reduces [1] ⟨1, ![R]⟩) (p : Fin R) (k : Fin C) :
    h.lift (ix1 p) k = ix2 p k := by
  funext c
  apply Fin.ext
  match c with
  | ⟨0, _⟩ => rfl
  | ⟨1, _⟩ => rfl

/-- In a rank-3 array, `(a, b)` with the coordinate `k` inserted on the last axis is `(a, b, k)`. -/
theorem lift_last3 {A B C : ℕ} (h : (⟨3, ![A, B, C]⟩ : Shape).Reduces [2] ⟨2, ![A, B]⟩) (a : Fin A) (b : Fin B) (k : Fin C) :
    h.lift (ix2 a b) k = ix3 a b k := by
  funext c
  apply Fin.ext
  match c with
  | ⟨0, _⟩ => rfl
  | ⟨1, _⟩ => rfl
  | ⟨2, _⟩ => rfl

/-- The host's maximum along the last axis of a rank-3 array, at `(a, b)`: the fold of `max`, from the initial value, over
    `k` of the entries `(a, b, k)`. -/
theorem hostMax_last3 {A B C : ℕ} (x : (⟨3, ![A, B, C]⟩ : Shape).Idx → EReal) (init : (⟨0, ![]⟩ : Shape).Idx → EReal)
    (h' : (⟨3, ![A, B, C]⟩ : Shape).ReducesTo [2] ⟨2, ![A, B]⟩) (h : (⟨3, ![A, B, C]⟩ : Shape).Reduces [2] ⟨2, ![A, B]⟩)
    (hu : 0 < (⟨0, ![]⟩ : Shape).numel) (a : Fin A) (b : Fin B) :
    Host.reduce (FloatOps.maximumf (F := Ideal) (φ := .f32)) x init h' hu (ix2 a b)
      = (Finset.univ : Finset (Fin C)).fold max (init (Shape.Idx.first hu)) (fun k => x (ix3 a b k)) := by
  refine (Host.reduce_eq_fold_single (FloatOps.maximumf (F := Ideal) (φ := .f32)) x init h' h hu (ix2 a b)).trans ?_
  exact congrArg (Finset.fold max (init (Shape.Idx.first hu)) · (Finset.univ : Finset (Fin C)))
    (funext fun k => congrArg x (lift_last3 h a b k))

/-- A sum along the second axis, at row `p`: the sum over the columns of the entries of that row. -/
theorem rowSum_apply {R C : ℕ} (src : FVec Ideal ⟨2, ![R, C]⟩ .f32) (acc : BitVec 32)
    (h : (⟨2, ![R, C]⟩ : Shape).Reduces [1] ⟨1, ![R]⟩) (hφ : FKind.Formats .f32) (hacc : acc = FKind.add.neutral .f32 hφ)
    (p : Fin R) :
    multiReduction .add [1] ⟨1, ![R]⟩ src acc h hφ hacc (ix1 p) = ∑ k : Fin C, src (ix2 p k) := by
  refine (Ideal.multiReduction_add_single src acc h hφ hacc (ix1 p)).trans ?_
  exact Finset.sum_congr rfl fun k _ => congrArg src (lift_row h p k)

/-- A maximum along the second axis, at row `p`: the fold of `max`, from the accumulator's value, over the columns. -/
theorem rowMax_apply {R C : ℕ} (src : FVec Ideal ⟨2, ![R, C]⟩ .f32) (acc : BitVec 32)
    (h : (⟨2, ![R, C]⟩ : Shape).Reduces [1] ⟨1, ![R]⟩) (hφ : FKind.Formats .f32) (hacc : acc = FKind.maximumf.neutral .f32 hφ)
    (p : Fin R) :
    multiReduction .maximumf [1] ⟨1, ![R]⟩ src acc h hφ hacc (ix1 p)
      = (Finset.univ : Finset (Fin C)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin C)))
    (funext fun k => congrArg src (lift_row h p k))

end Cert.RowOps

end
-- ==== Proof.RefValue.lean ====
/-
  The reference's three results, read at an index, at the ideal values.

  The reference scales every row of the queries and of the keys to unit norm, takes for every batch the inner products of
  the query rows with the key rows over the temperature, takes the log-softmax along the keys (the maximum of a row, folded
  from minus infinity, is joined once more with minus infinity, which changes nothing), exponentiates, and multiplies the
  weights with the values of the batch. Stage by stage, each of its operations at coordinates `(b, r, ·)` is the corresponding
  function of the query row `(b, r)` and of the key rows and value rows of batch `b`.
-/
import proofs.«135573_j549755814004_1_alg».proof.Proof.RefRead
import proofs.«135573_j549755814004_1_alg».proof.Proof.Attn
import proofs.«135573_j549755814004_1_alg».proof.Proof.LibRowOps

noncomputable section

namespace Cert.ReferenceIdeal.RefValue

open Cert.ReferenceIdeal Cert.ReferenceIdeal.Gen Cert.ReferenceIdeal.ReadP Idealize.ShloMosaic Idealize.ShloMosaic.ValueIdx

/-- An `[8, 2048, 64]` array of extended reals. -/
abbrev Arr : Type := (⟨S8x2048x64, .f32⟩ : BufTy).Contents (Elt Ideal)

/-! ## Rows scaled to unit norm -/

/-- The sum of the squares of query row `(b, r)`. -/
theorem sumsq_q (q : Arr) (b : Fin 8) (r : Fin 2048) :
    val_main_v1 (F := Ideal) q (ix2 b r) = ∑ d : Fin 64, Attn.rows q b r d * Attn.rows q b r d := by
  refine (val_main_v1_apply q (ix2 b r)).trans ?_
  show Ideal.ofBits .f32 0x00000000#32 + _ = _
  rw [Ideal.ofBits_zero_f32, zero_add]
  refine Finset.sum_congr rfl fun d _ => ?_
  have e : idx_main_v1 (ix2 b r) d = ix3 b r d := funext fun a => by
    match a with | ⟨0, _⟩ => rfl | ⟨1, _⟩ => rfl | ⟨2, _⟩ => rfl
  rw [e]; rfl

/-- The floored norm of query row `(b, r)`, kept as a column. -/
theorem norm_q (q : Arr) (b : Fin 8) (r : Fin 2048) (u : Fin 1) :
    val_main_v5 (F := Ideal) q (ix3 b r u) = Attn.rowNorm (Attn.rows q b r) := by
  have e2 : idx_main_v2 (ix3 b r u) = ix2 b r := funext fun a => by
    match a with | ⟨0, _⟩ => rfl | ⟨1, _⟩ => rfl
  have e3 : val_main_v3 (F := Ideal) q (ix3 b r u) = Ideal.sqrt (∑ d : Fin 64, Attn.rows q b r d * Attn.rows q b r d) := by
    show Ideal.sqrt (val_main_v2 (F := Ideal) q (ix3 b r u)) = _
    rw [val_main_v2_apply, e2, sumsq_q]
  have e4 : val_main_v4 (F := Ideal) (ix3 b r u) = Attn.eps := by
    rw [val_main_v4_apply]; rfl
  show max (val_main_v3 (F := Ideal) q (ix3 b r u)) (val_main_v4 (F := Ideal) (ix3 b r u)) = _
  rw [e3, e4]; rfl

/-- Query row `(b, r)` scaled to unit norm, at feature `d`. -/
theorem unit_q (q : Arr) (b : Fin 8) (r : Fin 2048) (d : Fin 64) :
    val_main_v7 (F := Ideal) q (ix3 b r d) = Attn.unit (Attn.rows q b r) d := by
  have e6 : idx_main_v6 (ix3 b r d) = ix3 b r (0 : Fin 1) := funext fun a => by
    match a with | ⟨0, _⟩ => rfl | ⟨1, _⟩ => rfl | ⟨2, _⟩ => rfl
  show Ideal.div (q (ix3 b r d)) (val_main_v6 (F := Ideal) q (ix3 b r d)) = _
  rw [val_main_v6_apply, e6, norm_q]; rfl

/-- The sum of the squares of key row `(b, r)`. -/
theorem sumsq_k (k : Arr) (b : Fin 8) (r : Fin 2048) :
    val_main_v9 (F := Ideal) k (ix2 b r) = ∑ d : Fin 64, Attn.rows k b r d * Attn.rows k b r d := by
  refine (val_main_v9_apply k (ix2 b r)).trans ?_
  show Ideal.ofBits .f32 0x00000000#32 + _ = _
  rw [Ideal.ofBits_zero_f32, zero_add]
  refine Finset.sum_congr rfl fun d _ => ?_
  have e : idx_main_v9 (ix2 b r) d = ix3 b r d := funext fun a => by
    match a with | ⟨0, _⟩ => rfl | ⟨1, _⟩ => rfl | ⟨2, _⟩ => rfl
  rw [e]; rfl

/-- The floored norm of key row `(b, r)`, kept as a column. -/
theorem norm_k (k : Arr) (b : Fin 8) (r : Fin 2048) (u : Fin 1) :
    val_main_v13 (F := Ideal) k (ix3 b r u) = Attn.rowNorm (Attn.rows k b r) := by
  have e2 : idx_main_v10 (ix3 b r u) = ix2 b r := funext fun a => by
    match a with | ⟨0, _⟩ => rfl | ⟨1, _⟩ => rfl
  have e3 : val_main_v11 (F := Ideal) k (ix3 b r u) = Ideal.sqrt (∑ d : Fin 64, Attn.rows k b r d * Attn.rows k b r d) := by
    show Ideal.sqrt (val_main_v10 (F := Ideal) k (ix3 b r u)) = _
    rw [val_main_v10_apply, e2, sumsq_k]
  have e4 : val_main_v12 (F := Ideal) (ix3 b r u) = Attn.eps := by
    rw [val_main_v12_apply]; rfl
  show max (val_main_v11 (F := Ideal) k (ix3 b r u)) (val_main_v12 (F := Ideal) (ix3 b r u)) = _
  rw [e3, e4]; rfl

/-- Key row `(b, r)` scaled to unit norm, at feature `d`. -/
theorem unit_k (k : Arr) (b : Fin 8) (r : Fin 2048) (d : Fin 64) :
    val_main_v15 (F := Ideal) k (ix3 b r d) = Attn.unit (Attn.rows k b r) d := by
  have e6 : idx_main_v14 (ix3 b r d) = ix3 b r (0 : Fin 1) := funext fun a => by
    match a with | ⟨0, _⟩ => rfl | ⟨1, _⟩ => rfl | ⟨2, _⟩ => rfl
  show Ideal.div (k (ix3 b r d)) (val_main_v14 (F := Ideal) k (ix3 b r d)) = _
  rw [val_main_v14_apply, e6, norm_k]; rfl

/-! ## The scores and their log-softmax -/

/-- Score `(b, i, j)`: query row `(b, i)` against key row `(b, j)`. -/
theorem score_at (q k : Arr) (b : Fin 8) (i j : Fin 2048) :
    val_main_v18 (F := Ideal) q k (ix3 b i j) = Attn.score (Attn.rows q b i) (Attn.rows k b j) := by
  have e17 : val_main_v17 (F := Ideal) (ix3 b i j) = Attn.temp := by
    rw [val_main_v17_apply]; rfl
  show Ideal.div (val_main_v16 (F := Ideal) q k (ix3 b i j)) (val_main_v17 (F := Ideal) (ix3 b i j)) = _
  rw [val_main_v16_apply, e17]
  unfold Attn.score
  refine congrArg (fun z => Ideal.div z Attn.temp) (Finset.sum_congr rfl fun d _ => ?_)
  have el : lidx_main_v16 (ix3 b i j) d = ix3 b i d := funext fun a => by
    match a with | ⟨0, _⟩ => rfl | ⟨1, _⟩ => rfl | ⟨2, _⟩ => rfl
  have er : ridx_main_v16 (ix3 b i j) d = ix3 b j d := funext fun a => by
    match a with | ⟨0, _⟩ => rfl | ⟨1, _⟩ => rfl | ⟨2, _⟩ => rfl
  rw [el, er, unit_q, unit_k]

/-- The scores of query `(b, i)` over the keys of its batch. -/
def scoreRow (q k : Arr) (b : Fin 8) (i : Fin 2048) : Fin 2048 → EReal :=
  fun j => Attn.score (Attn.rows q b i) (Attn.rows k b j)

/-- The maximum of the scores of query `(b, i)`: the reduction's fold from minus infinity, joined with minus infinity. -/
theorem top_at (q k : Arr) (b : Fin 8) (i : Fin 2048) :
    val_main_call0_v2 (F := Ideal) q k (ix2 b i) = Attn.top (scoreRow q k b i) := by
  have hred : S8x2048x2048.Reduces [2] S8x2048 := by decide
  have hs : (fun j : Fin 2048 => val_main_v18 (F := Ideal) q k (ix3 b i j)) = scoreRow q k b i :=
    funext fun j => score_at q k b i j
  have hinit : val_main_call0_cst (F := Ideal) (Shape.Idx.first h_S_) = Attn.start := rfl
  have e0 : val_main_call0_v0 (F := Ideal) q k (ix2 b i) = Attn.top (scoreRow q k b i) := by
    unfold val_main_call0_v0
    refine (RowOps.hostMax_last3 (val_main_v18 (F := Ideal) q k) (val_main_call0_cst (F := Ideal))
      reducesTo_S8x2048x2048_S8x2048_d2 hred h_S_ b i).trans ?_
    rw [hs, hinit]
    unfold Attn.top
    rfl
  have e1 : val_main_call0_v1 (F := Ideal) (ix2 b i) = Attn.start := by
    rw [val_main_call0_v1_apply]; rfl
  rw [val_main_call0_v2_apply, e0, e1, Ideal.maximumf_def]
  exact Attn.max_start_top _

/-- The shifted score `(b, i, j)`. -/
theorem shifted_at (q k : Arr) (b : Fin 8) (i j : Fin 2048) :
    val_main_call0_v5 (F := Ideal) q k (ix3 b i j) = scoreRow q k b i j - Attn.top (scoreRow q k b i) := by
  have e4 : idx_main_call0_v4 (ix3 b i j) = ix3 b i (0 : Fin 1) := funext fun a => by
    match a with | ⟨0, _⟩ => rfl | ⟨1, _⟩ => rfl | ⟨2, _⟩ => rfl
  have e3 : idx_main_call0_v3 (ix3 b i (0 : Fin 1)) = ix2 b i := funext fun a => by
    match a with | ⟨0, _⟩ => rfl | ⟨1, _⟩ => rfl
  rw [val_main_call0_v5_apply, val_main_call0_v4_apply, e4, val_main_call0_v3_apply, e3, top_at, score_at, Ideal.subf_def]
  rfl

/-- The sum of the exponentials of the shifted scores of query `(b, i)`. -/
theorem denom_at (q k : Arr) (b : Fin 8) (i : Fin 2048) :
    val_main_call0_v7 (F := Ideal) q k (ix2 b i)
      = ∑ j : Fin 2048, Ideal.exp (scoreRow q k b i j - Attn.top (scoreRow q k b i)) := by
  have hz : val_main_call0_cst_1 (F := Ideal) (Shape.Idx.first h_S_) = 0 := Ideal.ofBits_zero_f32
  rw [val_main_call0_v7_apply, hz, zero_add]
  refine Finset.sum_congr rfl fun j _ => ?_
  have e : idx_main_call0_v7 (ix2 b i) j = ix3 b i j := funext fun a => by
    match a with | ⟨0, _⟩ => rfl | ⟨1, _⟩ => rfl | ⟨2, _⟩ => rfl
  rw [e, val_main_call0_v6_apply, shifted_at, Ideal.hostUnary_exp_def]

/-- The log-weight `(b, i, j)`. -/
theorem logAttn_at (q k : Arr) (b : Fin 8) (i j : Fin 2048) :
    val_main_v19 (F := Ideal) q k (ix3 b i j) = Attn.logAttn (Attn.rows q b i) (Attn.rows k b) j := by
  have e10 : idx_main_call0_v10 (ix3 b i j) = ix3 b i (0 : Fin 1) := funext fun a => by
    match a with | ⟨0, _⟩ => rfl | ⟨1, _⟩ => rfl | ⟨2, _⟩ => rfl
  have e8 : idx_main_call0_v8 (ix3 b i (0 : Fin 1)) = ix2 b i := funext fun a => by
    match a with | ⟨0, _⟩ => rfl | ⟨1, _⟩ => rfl
  rw [val_main_v19_apply, val_main_call0_v10_apply, e10, val_main_call0_v9_apply, val_main_call0_v8_apply, e8, denom_at,
    shifted_at, Ideal.subf_def, Ideal.hostUnary_log_def]
  rfl

/-- The weight `(b, i, j)`. -/
theorem attn_at (q k : Arr) (b : Fin 8) (i j : Fin 2048) :
    val_main_v20 (F := Ideal) q k (ix3 b i j) = Attn.attn (Attn.rows q b i) (Attn.rows k b) j := by
  rw [val_main_v20_apply, logAttn_at, Ideal.hostUnary_exp_def]
  rfl

/-- The output `(b, i, d)`. -/
theorem out_at (q k v : Arr) (b : Fin 8) (i : Fin 2048) (d : Fin 64) :
    val_main_v21 (F := Ideal) q k v (ix3 b i d) = Attn.out (Attn.rows q b i) (Attn.rows k b) (Attn.rows v b) d := by
  rw [val_main_v21_apply]
  unfold Attn.out
  refine Finset.sum_congr rfl fun j _ => ?_
  have el : lidx_main_v21 (ix3 b i d) j = ix3 b i j := funext fun a => by
    match a with | ⟨0, _⟩ => rfl | ⟨1, _⟩ => rfl | ⟨2, _⟩ => rfl
  have er : ridx_main_v21 (ix3 b i d) j = ix3 b j d := funext fun a => by
    match a with | ⟨0, _⟩ => rfl | ⟨1, _⟩ => rfl | ⟨2, _⟩ => rfl
  rw [el, er, attn_at]
  rfl

/-! ## The three results as whole arrays -/

theorem out_eq (q k v : Arr) : val_main_v21 (F := Ideal) q k v = Attn.outArr q k v := by
  funext i
  obtain ⟨b, r, d, rfl⟩ : ∃ (b : Fin 8) (r : Fin 2048) (d : Fin 64), i = ix3 b r d := ⟨i 0, i 1, i 2, eq_ix3 i⟩
  exact out_at q k v b r d

theorem attn_eq (q k : Arr) : val_main_v20 (F := Ideal) q k = Attn.attnArr q k := by
  funext i
  obtain ⟨b, r, j, rfl⟩ : ∃ (b : Fin 8) (r : Fin 2048) (j : Fin 2048), i = ix3 b r j := ⟨i 0, i 1, i 2, eq_ix3 i⟩
  exact attn_at q k b r j

theorem logAttn_eq (q k : Arr) : val_main_v19 (F := Ideal) q k = Attn.logAttnArr q k := by
  funext i
  obtain ⟨b, r, j, rfl⟩ : ∃ (b : Fin 8) (r : Fin 2048) (j : Fin 2048), i = ix3 b r j := ⟨i 0, i 1, i 2, eq_ix3 i⟩
  exact logAttn_at q k b r j

end Cert.ReferenceIdeal.RefValue

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.KernelBody.lean ====
/-
  What the kernel's body computes from its three loaded blocks, read at an index, at the ideal values.

  A grid point loads a `[1, 256, 64]` block of queries and the `[1, 2048, 64]` blocks of one batch's keys and values. The
  body scales the rows of the query block and of the key block to unit norm, multiplies the two (contracting the 64
  features), divides by the temperature, takes the log-softmax of each of the 256 rows over its 2048 scores, exponentiates,
  and multiplies the weights with the values. Changes of float format are the identity on the extended reals. Each stage
  is named here as the body writes it, so that the body's payload IS their composition, and each is read at `(p, j)`:
  row `p` of the block depends only on query row `p` and on all the key rows.
-/
import proofs.«135573_j549755814004_1_alg».proof.Proof.Gen.KernelIdeal.Skeleton
import proofs.«135573_j549755814004_1_alg».proof.Proof.Attn
import proofs.«135573_j549755814004_1_alg».proof.Proof.LibRowOps
import proofs.«135573_j549755814004_1_alg».proof.Proof.LibColumn
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## Rows scaled to unit norm -/

/-- The rows of an `[R, 64]` matrix, each divided by its floored norm, as the body writes it: the squares summed along
    the row, the sum as a column, its square root, the floor, the column spread over the row, the quotient. -/
def unitRows {R : ℕ} (x : FVec Ideal ⟨2, ![R, 64]⟩ .f32) (hred : (⟨2, ![R, 64]⟩ : Shape).Reduces [1] ⟨1, ![R]⟩)
    (hcast : (⟨1, ![R]⟩ : Shape).ShapeCasts ⟨2, ![R, 1]⟩) (hbc : (⟨2, ![R, 1]⟩ : Shape).Broadcasts ⟨2, ![R, 64]⟩) :
    FVec Ideal ⟨2, ![R, 64]⟩ .f32 :=
  divf x (broadcastTo ⟨2, ![R, 64]⟩
    (maximumf (sqrt (shapeCast ⟨2, ![R, 1]⟩ (multiReduction .add [1] ⟨1, ![R]⟩ (mulf x x) 0x00000000#32 hred (.inl rfl) rfl) hcast))
      (broadcast ⟨2, ![R, 1]⟩ (Scalar.ofBits .f32 0x2B8CBCCC#32))) hbc)

/-- Entry `(p, d)` of the scaled matrix is entry `d` of the unit row of row `p`. -/
theorem unitRows_apply {R : ℕ} (x : FVec Ideal ⟨2, ![R, 64]⟩ .f32) (hred : (⟨2, ![R, 64]⟩ : Shape).Reduces [1] ⟨1, ![R]⟩)
    (hcast : (⟨1, ![R]⟩ : Shape).ShapeCasts ⟨2, ![R, 1]⟩) (hbc : (⟨2, ![R, 1]⟩ : Shape).Broadcasts ⟨2, ![R, 64]⟩)
    (p : Fin R) (d : Fin 64) :
    unitRows x hred hcast hbc (ix2 p d) = Attn.unit (fun d' => x (ix2 p d')) d := by
  unfold unitRows
  show Ideal.div (x (ix2 p d)) (broadcastTo ⟨2, ![R, 64]⟩ _ hbc (ix2 p d)) = _
  rw [Cert.Column.broadcastTo_a1_ab_apply]
  show Ideal.div (x (ix2 p d)) (max (Ideal.sqrt (shapeCast ⟨2, ![R, 1]⟩ _ hcast (ix2 p (0 : Fin 1)))) (Ideal.ofBits .f32 0x2B8CBCCC#32)) = _
  rw [Cert.Column.shapeCast_a_a1_apply, RowOps.rowSum_apply (mulf x x) 0x00000000#32 hred (.inl rfl) rfl p]
  rfl

/-! ## The scores -/

/-- The query block's rows against the key block's rows: the product contracting the features, over the temperature. -/
def scoreMat (qn : FVec Ideal S256x64 .f32) (kn : FVec Ideal S2048x64 .f32) : FVec Ideal S256x2048 .f32 :=
  divf (matmul dot_S256x64_S2048x64_S256x2048_1_1_0_0_n_n none (truncf .bf16 qn bitsLt_bf16_f32) (truncf .bf16 kn bitsLt_bf16_f32)
      (constant S256x2048 .f32 0x00000000#32)) (broadcast S256x2048 (Scalar.ofBits .f32 0x41C80000#32))

/-- The first product's operand indices at an output index `i` and a contraction index `q`: the left operand is read at
    row `i 0`, the right at row `i 1`, both at the contracted feature. -/
theorem qk_lhs_0 (i : S256x2048.Idx) (q : dot_S256x64_S2048x64_S256x2048_1_1_0_0_n_n.contr.Idx) : (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs_1 (i : S256x2048.Idx) (q : dot_S256x64_S2048x64_S256x2048_1_1_0_0_n_n.contr.Idx) : (dot_S256x64_S2048x64_S256x2048_1_1_0_0_n_n.lhsIdx i q 1).val = (q ⟨0, by decide⟩).val :=
  dot_S256x64_S2048x64_S256x2048_1_1_0_0_n_n.lhsIdx_val_of_single rfl i q
theorem qk_rhs_0 (i : S256x2048.Idx) (q : dot_S256x64_S2048x64_S256x2048_1_1_0_0_n_n.contr.Idx) : (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs_1 (i : S256x2048.Idx) (q : dot_S256x64_S2048x64_S256x2048_1_1_0_0_n_n.contr.Idx) : (dot_S256x64_S2048x64_S256x2048_1_1_0_0_n_n.rhsIdx i q 1).val = (q ⟨0, by decide⟩).val :=
  dot_S256x64_S2048x64_S256x2048_1_1_0_0_n_n.rhsIdx_val_of_single rfl i q

/-- The first product at `(p, j)`: the sum over the features of row `p` of the left factor times row `j` of the right. -/
theorem matmul_rows_apply (l : FVec Ideal S256x64 .bf16) (r : FVec Ideal S2048x64 .bf16) (p : Fin 256) (j : Fin 2048) :
    matmul dot_S256x64_S2048x64_S256x2048_1_1_0_0_n_n none l r (constant S256x2048 .f32 0x00000000#32) (ix2 p j)
      = ∑ d : Fin 64, l (ix2 p d) * r (ix2 j d) := by
  simp only [matmul]
  rw [Ideal.matmul_constant_zero_apply, ← Equiv.sum_comp (ValueIdx.contrEquiv1 dot_S256x64_S2048x64_S256x2048_1_1_0_0_n_n 64 rfl rfl).symm]
  refine Finset.sum_congr rfl fun k _ => ?_
  have hk := ValueIdx.contrEquiv1_symm_val dot_S256x64_S2048x64_S256x2048_1_1_0_0_n_n 64 rfl rfl k
  have el : dot_S256x64_S2048x64_S256x2048_1_1_0_0_n_n.lhsIdx (ix2 p j) ((ValueIdx.contrEquiv1 dot_S256x64_S2048x64_S256x2048_1_1_0_0_n_n 64 rfl rfl).symm k) = ix2 p k := funext fun a => Fin.ext (by
    match a with
    | ⟨0, _⟩ => exact qk_lhs_0 _ _
    | ⟨1, _⟩ => exact (qk_lhs_1 _ _).trans hk)
  have er : dot_S256x64_S2048x64_S256x2048_1_1_0_0_n_n.rhsIdx (ix2 p j) ((ValueIdx.contrEquiv1 dot_S256x64_S2048x64_S256x2048_1_1_0_0_n_n 64 rfl rfl).symm k) = ix2 j k := funext fun a => Fin.ext (by
    match a with
    | ⟨0, _⟩ => exact qk_rhs_0 _ _
    | ⟨1, _⟩ => exact (qk_rhs_1 _ _).trans hk)
  rw [el, er]

/-- Score `(p, j)`: the inner product of row `p` of the left matrix with row `j` of the right, over the temperature. -/
theorem scoreMat_apply (qn : FVec Ideal S256x64 .f32) (kn : FVec Ideal S2048x64 .f32) (p : Fin 256) (j : Fin 2048) :
    scoreMat qn kn (ix2 p j) = Ideal.div (∑ d : Fin 64, qn (ix2 p d) * kn (ix2 j d)) Attn.temp := by
  unfold scoreMat
  show Ideal.div (matmul dot_S256x64_S2048x64_S256x2048_1_1_0_0_n_n none (truncf .bf16 qn bitsLt_bf16_f32) (truncf .bf16 kn bitsLt_bf16_f32)
      (constant S256x2048 .f32 0x00000000#32) (ix2 p j)) Attn.temp = _
  rw [matmul_rows_apply]
  rfl

/-! ## The log-softmax of each row -/

/-- Each row of a `[256, 2048]` matrix of scores shifted by its maximum, then by the logarithm of the sum of the
    exponentials of the shifted row: the body's reductions along the row, each result spread back over the row. -/
def logSoftmaxRows (s : FVec Ideal S256x2048 .f32) : FVec Ideal S256x2048 .f32 :=
  have m : FVec Ideal S256x2048 .f32 := broadcastTo S256x2048 (shapeCast S256x1
    (multiReduction .maximumf [1] S256 s 0xFF800000#32 reduces_S256x2048_S256 (.inl rfl) rfl) shapeCasts_S256_S256x1) broadcasts_S256x1_S256x2048
  have sh : FVec Ideal S256x2048 .f32 := subf s m
  subf sh (broadcastTo S256x2048 (log (shapeCast S256x1
    (multiReduction .add [1] S256 (exp sh) 0x00000000#32 reduces_S256x2048_S256 (.inl rfl) rfl) shapeCasts_S256_S256x1)) broadcasts_S256x1_S256x2048)

/-- The row maximum spread over the row, at `(p, j)`: the fold of `max` over row `p`. -/
theorem rowTop_apply (s : FVec Ideal S256x2048 .f32) (p : Fin 256) (j : Fin 2048) :
    broadcastTo S256x2048 (shapeCast S256x1
      (multiReduction .maximumf [1] S256 s 0xFF800000#32 reduces_S256x2048_S256 (.inl rfl) rfl) shapeCasts_S256_S256x1) broadcasts_S256x1_S256x2048 (ix2 p j)
      = Attn.top (fun j' => s (ix2 p j')) := by
  rw [Cert.Column.broadcastTo_a1_ab_apply, Cert.Column.shapeCast_a_a1_apply,
    RowOps.rowMax_apply s 0xFF800000#32 reduces_S256x2048_S256 (.inl rfl) rfl p]
  rfl

/-- Entry `(p, j)` of the result is the log-softmax of row `p` at `j`. -/
theorem logSoftmaxRows_apply (s : FVec Ideal S256x2048 .f32) (p : Fin 256) (j : Fin 2048) :
    logSoftmaxRows s (ix2 p j) = Attn.logSoftmax (fun j' => s (ix2 p j')) j := by
  unfold logSoftmaxRows
  show (s (ix2 p j) - broadcastTo S256x2048 _ broadcasts_S256x1_S256x2048 (ix2 p j))
      - broadcastTo S256x2048 (log (shapeCast S256x1 _ shapeCasts_S256_S256x1)) broadcasts_S256x1_S256x2048 (ix2 p j) = _
  rw [rowTop_apply, Cert.Column.broadcastTo_a1_ab_apply]
  show (s (ix2 p j) - Attn.top (fun j' => s (ix2 p j')))
      - Ideal.log (shapeCast S256x1 _ shapeCasts_S256_S256x1 (ix2 p (0 : Fin 1))) = _
  rw [Cert.Column.shapeCast_a_a1_apply, RowOps.rowSum_apply _ 0x00000000#32 reduces_S256x2048_S256 (.inl rfl) rfl p]
  unfold Attn.logSoftmax
  refine congrArg (fun z => (s (ix2 p j) - Attn.top (fun j' => s (ix2 p j'))) - Ideal.log z) (Finset.sum_congr rfl fun k _ => ?_)
  show Ideal.exp (s (ix2 p k) - broadcastTo S256x2048 _ broadcasts_S256x1_S256x2048 (ix2 p k)) = _
  rw [rowTop_apply]

/-! ## The payloads -/

/-- The log-weights payload is the composition of the stages: the blocks' leading unit axis dropped, the rows scaled to
    unit norm, the scores, the log-softmax of each row. -/
theorem pay4_eq (P0 : Vec Ideal S1x256x64 .f32) (P1 : Vec Ideal S1x2048x64 .f32) :
    k0_pay4 (F := Ideal) P0 P1 = logSoftmaxRows (scoreMat
      (unitRows (R := 256) (shapeCast S256x64 P0 shapeCasts_S1x256x64_S256x64) reduces_S256x64_S256 shapeCasts_S256_S256x1 broadcasts_S256x1_S256x64)
      (unitRows (R := 2048) (shapeCast S2048x64 P1 shapeCasts_S1x2048x64_S2048x64) reduces_S2048x64_S2048 shapeCasts_S2048_S2048x1 broadcasts_S2048x1_S2048x64)) := rfl

/-- The log-weights payload at `(p, j)`: the log-weight of key `j` for the query in row `p` of the query block, over the
    key block's rows. -/
theorem pay4_apply (P0 : Vec Ideal S1x256x64 .f32) (P1 : Vec Ideal S1x2048x64 .f32) (p : Fin 256) (j : Fin 2048) :
    k0_pay4 (F := Ideal) P0 P1 (ix2 p j)
      = Attn.logAttn (fun d => P0 (ix3 (0 : Fin 1) p d)) (fun j' d => P1 (ix3 (0 : Fin 1) j' d)) j := by
  rw [pay4_eq, logSoftmaxRows_apply]
  unfold Attn.logAttn
  refine congrArg (fun s => Attn.logSoftmax s j) (funext fun j' => ?_)
  rw [scoreMat_apply]
  unfold Attn.score
  refine congrArg (fun z => Ideal.div z Attn.temp) (Finset.sum_congr rfl fun d _ => ?_)
  rw [unitRows_apply, unitRows_apply]
  refine congrArg₂ (· * ·) (congrArg (fun x => Attn.unit x d) (funext fun d' => ?_)) (congrArg (fun x => Attn.unit x d) (funext fun d' => ?_))
  · exact shapeCast_1ab_ab_apply P0 shapeCasts_S1x256x64_S256x64 p d'
  · exact shapeCast_1ab_ab_apply P1 shapeCasts_S1x2048x64_S2048x64 j' d'

/-- The weights payload at `(p, j)`: the exponential of the log-weight. -/
theorem pay5_apply (P0 : Vec Ideal S1x256x64 .f32) (P1 : Vec Ideal S1x2048x64 .f32) (p : Fin 256) (j : Fin 2048) :
    k0_pay5 (F := Ideal) P0 P1 (ix2 p j)
      = Attn.attn (fun d => P0 (ix3 (0 : Fin 1) p d)) (fun j' d => P1 (ix3 (0 : Fin 1) j' d)) j := by
  show Ideal.exp (k0_pay4 (F := Ideal) P0 P1 (ix2 p j)) = _
  rw [pay4_apply]
  rfl

/-- The second product's operand indices: the weights are read at row `i 0` and the contracted key, the values at the
    contracted key and column `i 1`. -/
theorem av_lhs_0 (i : S256x64.Idx) (q : dot_S256x2048_S2048x64_S256x64_1_0_0_1_n_n.contr.Idx) : (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem av_lhs_1 (i : S256x64.Idx) (q : dot_S256x2048_S2048x64_S256x64_1_0_0_1_n_n.contr.Idx) : (dot_S256x2048_S2048x64_S256x64_1_0_0_1_n_n.lhsIdx i q 1).val = (q ⟨0, by decide⟩).val :=
  dot_S256x2048_S2048x64_S256x64_1_0_0_1_n_n.lhsIdx_val_of_single rfl i q
theorem av_rhs_0 (i : S256x64.Idx) (q : dot_S256x2048_S2048x64_S256x64_1_0_0_1_n_n.contr.Idx) : (dot_S256x2048_S2048x64_S256x64_1_0_0_1_n_n.rhsIdx i q 0).val = (q ⟨0, by decide⟩).val :=
  dot_S256x2048_S2048x64_S256x64_1_0_0_1_n_n.rhsIdx_val_of_single rfl i q
theorem av_rhs_1 (i : S256x64.Idx) (q : dot_S256x2048_S2048x64_S256x64_1_0_0_1_n_n.contr.Idx) : (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The second product at `(p, d)`: the sum over the keys of the weight `(p, j)` times the value `(j, d)`. -/
theorem matmul_cols_apply (l : FVec Ideal S256x2048 .bf16) (r : FVec Ideal S2048x64 .bf16) (p : Fin 256) (d : Fin 64) :
    matmul dot_S256x2048_S2048x64_S256x64_1_0_0_1_n_n none l r (constant S256x64 .f32 0x00000000#32) (ix2 p d)
      = ∑ j : Fin 2048, l (ix2 p j) * r (ix2 j d) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 p d) ((ValueIdx.contrEquiv1 dot_S256x2048_S2048x64_S256x64_1_0_0_1_n_n 2048 rfl rfl).symm k) = ix2 p k := funext fun a => Fin.ext (by
    match a with
    | ⟨0, _⟩ => exact av_lhs_0 _ _
    | ⟨1, _⟩ => exact (av_lhs_1 _ _).trans hk)
  have er : dot_S256x2048_S2048x64_S256x64_1_0_0_1_n_n.rhsIdx (ix2 p d) ((ValueIdx.contrEquiv1 dot_S256x2048_S2048x64_S256x64_1_0_0_1_n_n 2048 rfl rfl).symm k) = ix2 k d := funext fun a => Fin.ext (by
    match a with
    | ⟨0, _⟩ => exact (av_rhs_0 _ _).trans hk
    | ⟨1, _⟩ => exact av_rhs_1 _ _)
  rw [el, er]

/-- The output payload at `(u, p, d)`: feature `d` of the output row of the query in row `p` of the query block, over the
    key block's and the value block's rows. -/
theorem pay1_apply (P0 : Vec Ideal S1x256x64 .f32) (P1 P2 : Vec Ideal S1x2048x64 .f32) (u : Fin 1) (p : Fin 256) (d : Fin 64) :
    k0_pay1 (F := Ideal) (k0_pay6 P0 P1) (k0_pay7 P2) (constant S256x64 .f32 0x00000000#32) (ix3 u p d)
      = Attn.out (fun d' => P0 (ix3 (0 : Fin 1) p d')) (fun j d' => P1 (ix3 (0 : Fin 1) j d')) (fun j d' => P2 (ix3 (0 : Fin 1) j d')) d := by
  unfold k0_pay1
  refine (shapeCast_ab_1ab_apply _ shapeCasts_S256x64_S1x256x64 u p d).trans ?_
  rw [matmul_cols_apply]
  unfold Attn.out
  refine Finset.sum_congr rfl fun j _ => ?_
  refine congrArg₂ (· * ·) ?_ ?_
  · show k0_pay5 (F := Ideal) P0 P1 (ix2 p j) = _
    exact pay5_apply P0 P1 p j
  · show shapeCast S2048x64 P2 shapeCasts_S1x2048x64_S2048x64 (ix2 j d) = _
    exact shapeCast_1ab_ab_apply P2 shapeCasts_S1x2048x64_S2048x64 j d

end Cert.KernelIdeal.Body

end
-- ==== Proof.KernelBlock.lean ====
/-
  One grid point's three written blocks, as blocks of the whole-array results.

  A grid point `(b, it)` loads query rows `256·it … 256·it + 255` of batch `b` and all the key rows and value rows of batch
  `b`. Stated over variables: if block `P0` holds rows `r0 + p` of batch `b` of an array `q` (`RowsOf`), and blocks `P1`,
  `P2` hold batch `b` of arrays `k`, `v` (`BatchOf`), then entry `(u, p, j)` of each payload is entry `(b, r0 + p, j)` of
  the corresponding whole-array result.
-/
import proofs.«135573_j549755814004_1_alg».proof.Proof.KernelBody

noncomputable section

namespace Cert.KernelIdeal.Block

open Cert.KernelIdeal Cert.KernelIdeal.Gen Idealize.ShloMosaic Idealize.ShloMosaic.ValueIdx

/-- Block `P0` holds, in its row `p`, row `r0 + p` of batch `b` of `q`. -/
def RowsOf (q : (⟨3, ![8, 2048, 64]⟩ : Shape).Idx → EReal) (P0 : Vec Ideal S1x256x64 .f32) (b : Fin 8) (r0 : ℕ) : Prop :=
  ∀ (p : Fin 256) (d : Fin 64) (r : Fin 2048), r.val = r0 + p.val → P0 (ix3 (0 : Fin 1) p d) = q (ix3 b r d)

/-- Block `P1` holds batch `b` of `k`. -/
def BatchOf (k : (⟨3, ![8, 2048, 64]⟩ : Shape).Idx → EReal) (P1 : Vec Ideal S1x2048x64 .f32) (b : Fin 8) : Prop :=
  ∀ (j : Fin 2048) (d : Fin 64), P1 (ix3 (0 : Fin 1) j d) = k (ix3 b j d)

theorem RowsOf.row_eq {q : (⟨3, ![8, 2048, 64]⟩ : Shape).Idx → EReal} {P0 : Vec Ideal S1x256x64 .f32} {b : Fin 8} {r0 : ℕ}
    (h : RowsOf q P0 b r0) (p : Fin 256) (r : Fin 2048) (hr : r.val = r0 + p.val) :
    (fun d => P0 (ix3 (0 : Fin 1) p d)) = Attn.rows q b r :=
  funext fun d => h p d r hr

theorem BatchOf.rows_eq {k : (⟨3, ![8, 2048, 64]⟩ : Shape).Idx → EReal} {P1 : Vec Ideal S1x2048x64 .f32} {b : Fin 8}
    (h : BatchOf k P1 b) : (fun j d => P1 (ix3 (0 : Fin 1) j d)) = Attn.rows k b :=
  funext fun j => funext fun d => h j d

/-- The log-weights block. -/
theorem logAttn_block (q k : (⟨3, ![8, 2048, 64]⟩ : Shape).Idx → EReal) (P0 : Vec Ideal S1x256x64 .f32)
    (P1 : Vec Ideal S1x2048x64 .f32) (b : Fin 8) (r0 : ℕ) (h0 : RowsOf q P0 b r0) (h1 : BatchOf k P1 b)
    (y : S1x256x2048.Idx) (i : S8x2048x2048.Idx)
    (e0 : (i 0).val = b.val) (e1 : (i 1).val = r0 + (y 1).val) (e2 : (i 2).val = (y 2).val) :
    k0_pay3 (F := Ideal) (k0_pay4 P0 P1) y = Attn.logAttnArr q k i := by
  obtain ⟨u, p, j, rfl⟩ : ∃ (u : Fin 1) (p : Fin 256) (j : Fin 2048), y = ix3 u p j := ⟨y 0, y 1, y 2, eq_ix3 y⟩
  obtain ⟨b', r, j', rfl⟩ : ∃ (b' : Fin 8) (r : Fin 2048) (j' : Fin 2048), i = ix3 b' r j' := ⟨i 0, i 1, i 2, eq_ix3 i⟩
  obtain rfl : b = b' := Fin.ext e0.symm
  obtain rfl : j = j' := Fin.ext e2.symm
  unfold k0_pay3
  refine (shapeCast_ab_1ab_apply _ shapeCasts_S256x2048_S1x256x2048 u p j).trans ?_
  rw [Body.pay4_apply, h0.row_eq p r e1, h1.rows_eq]
  rfl

/-- The weights block. -/
theorem attn_block (q k : (⟨3, ![8, 2048, 64]⟩ : Shape).Idx → EReal) (P0 : Vec Ideal S1x256x64 .f32)
    (P1 : Vec Ideal S1x2048x64 .f32) (b : Fin 8) (r0 : ℕ) (h0 : RowsOf q P0 b r0) (h1 : BatchOf k P1 b)
    (y : S1x256x2048.Idx) (i : S8x2048x2048.Idx)
    (e0 : (i 0).val = b.val) (e1 : (i 1).val = r0 + (y 1).val) (e2 : (i 2).val = (y 2).val) :
    k0_pay2 (F := Ideal) (k0_pay5 P0 P1) y = Attn.attnArr q k i := by
  obtain ⟨u, p, j, rfl⟩ : ∃ (u : Fin 1) (p : Fin 256) (j : Fin 2048), y = ix3 u p j := ⟨y 0, y 1, y 2, eq_ix3 y⟩
  obtain ⟨b', r, j', rfl⟩ : ∃ (b' : Fin 8) (r : Fin 2048) (j' : Fin 2048), i = ix3 b' r j' := ⟨i 0, i 1, i 2, eq_ix3 i⟩
  obtain rfl : b = b' := Fin.ext e0.symm
  obtain rfl : j = j' := Fin.ext e2.symm
  unfold k0_pay2
  refine (shapeCast_ab_1ab_apply _ shapeCasts_S256x2048_S1x256x2048 u p j).trans ?_
  rw [Body.pay5_apply, h0.row_eq p r e1, h1.rows_eq]
  rfl

/-- The outputs block. -/
theorem out_block (q k v : (⟨3, ![8, 2048, 64]⟩ : Shape).Idx → EReal) (P0 : Vec Ideal S1x256x64 .f32)
    (P1 P2 : Vec Ideal S1x2048x64 .f32) (b : Fin 8) (r0 : ℕ) (h0 : RowsOf q P0 b r0) (h1 : BatchOf k P1 b) (h2 : BatchOf v P2 b)
    (y : S1x256x64.Idx) (i : S8x2048x64.Idx)
    (e0 : (i 0).val = b.val) (e1 : (i 1).val = r0 + (y 1).val) (e2 : (i 2).val = (y 2).val) :
    k0_pay1 (F := Ideal) (k0_pay6 P0 P1) (k0_pay7 P2) (constant S256x64 .f32 0x00000000#32) y = Attn.outArr q k v i := by
  obtain ⟨u, p, d, rfl⟩ : ∃ (u : Fin 1) (p : Fin 256) (d : Fin 64), y = ix3 u p d := ⟨y 0, y 1, y 2, eq_ix3 y⟩
  obtain ⟨b', r, d', rfl⟩ : ∃ (b' : Fin 8) (r : Fin 2048) (d' : Fin 64), i = ix3 b' r d' := ⟨i 0, i 1, i 2, eq_ix3 i⟩
  obtain rfl : b = b' := Fin.ext e0.symm
  obtain rfl : d = d' := Fin.ext e2.symm
  rw [Body.pay1_apply, h0.row_eq p r e1, h1.rows_eq, h2.rows_eq]
  rfl

end Cert.KernelIdeal.Block

end
-- ==== Proof.KernelValue.lean ====
/-
  The kernel's three result arrays after its run, each as one function of the argument arrays.

  The grid is 8 × 8: point `t` is batch `b = t / 8` and query tile `it = t % 8`. Its query block and its three output blocks
  sit at block index `(b, it, 0)`, its key and value blocks at `(b, 0, 0)`: decided once over the 64 points. A block's
  element `y` sits in its array at block index × block size + `y` on every axis, so the query block holds rows
  `256·it + p` of batch `b` and the key and value blocks hold batch `b` whole; what the point writes back is therefore the
  corresponding block of the whole-array result. The 64 output blocks tile each output array (row `r` of batch `b` is in
  the block of point `(b, r / 256)`), so after the run each output array is the whole-array result.
-/
import proofs.«135573_j549755814004_1_alg».proof.Proof.Gen.KernelIdeal.Value
import proofs.«135573_j549755814004_1_alg».proof.Proof.KernelBlock

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The printed index maps over the 64 grid points: the query window and the three output windows move together, the key
    and value windows follow the batch axis only, and the block indices stay in range. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_5.index t (0 : Fin 3) = win0_4.index t (0 : Fin 3) ∧ win0_5.index t (1 : Fin 3) = win0_4.index t (1 : Fin 3) ∧ win0_5.index t (2 : Fin 3) = 0
    ∧ win0_4.index t (0 : Fin 3) ≤ 7 ∧ win0_4.index t (1 : Fin 3) ≤ 7 ∧ win0_4.index t (2 : Fin 3) = 0 :=
  (by decide +kernel : ∀ t : Fin grid0.N, _)

/-- Every (batch, query tile) pair is some point's. -/
theorem idx_onto : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])

/-! ## What a point's input blocks hold -/

/-- The batch of point `t`. -/
def batch (t : Fin cfg0.N) : Fin 8 := ⟨win0_4.index t (0 : Fin 3), by have := (idx_facts t).2.2.2.2.2.2.2.2.2.2.2.2.2.2.2.1; omega⟩

/-- The query block of point `t` holds rows `256·it + p` of its batch. -/
theorem rows_q (c : Dev nD) (t : Fin cfg0.N) :
    Block.RowsOf (V m c main_arg0) (iblk m c 0 t) (batch t) (win0_4.index t (1 : Fin 3) * 256) := by
  obtain ⟨f00, f01, f02, -⟩ := idx_facts t
  intro p d r hr
  show V m c main_arg0 (((cfg0.win 0).blk t).view.emb (ix3 (0 : Fin 1) p d)) = V m c main_arg0 (ix3 (batch t) r d)
  refine congrArg (V m c main_arg0) (funext fun a => Fin.ext ?_)
  match a with
  | ⟨0, _⟩ => show win0_0.index t (0 : Fin 3) * 1 + 1 * 0 = win0_4.index t (0 : Fin 3); omega
  | ⟨1, _⟩ => show win0_0.index t (1 : Fin 3) * 256 + 1 * p.val = r.val; omega
  | ⟨2, _⟩ => show win0_0.index t (2 : Fin 3) * 64 + 1 * d.val = d.val; omega

/-- The key block of point `t` holds its batch. -/
theorem batch_k (c : Dev nD) (t : Fin cfg0.N) : Block.BatchOf (V m c main_arg1) (iblk m c 1 t) (batch t) := by
  obtain ⟨-, -, -, f10, f11, f12, -⟩ := idx_facts t
  intro j d
  show V m c main_arg1 (((cfg0.win 1).blk t).view.emb (ix3 (0 : Fin 1) j d)) = V m c main_arg1 (ix3 (batch t) j d)
  refine congrArg (V m c main_arg1) (funext fun a => Fin.ext ?_)
  match a with
  | ⟨0, _⟩ => show win0_1.index t (0 : Fin 3) * 1 + 1 * 0 = win0_4.index t (0 : Fin 3); omega
  | ⟨1, _⟩ => show win0_1.index t (1 : Fin 3) * 2048 + 1 * j.val = j.val; omega
  | ⟨2, _⟩ => show win0_1.index t (2 : Fin 3) * 64 + 1 * d.val = d.val; omega

/-- The value block of point `t` holds its batch. -/
theorem batch_v (c : Dev nD) (t : Fin cfg0.N) : Block.BatchOf (V m c main_arg2) (iblk m c 2 t) (batch t) := by
  obtain ⟨-, -, -, -, -, -, f20, f21, f22, -⟩ := idx_facts t
  intro j d
  show V m c main_arg2 (((cfg0.win 2).blk t).view.emb (ix3 (0 : Fin 1) j d)) = V m c main_arg2 (ix3 (batch t) j d)
  refine congrArg (V m c main_arg2) (funext fun a => Fin.ext ?_)
  match a with
  | ⟨0, _⟩ => show win0_2.index t (0 : Fin 3) * 1 + 1 * 0 = win0_4.index t (0 : Fin 3); omega
  | ⟨1, _⟩ => show win0_2.index t (1 : Fin 3) * 2048 + 1 * j.val = j.val; omega
  | ⟨2, _⟩ => show win0_2.index t (2 : Fin 3) * 64 + 1 * d.val = d.val; omega

/-! ## What a point writes back -/

/-- Point `t` writes back block `t` of the weights. -/
theorem flushed_attn (c : Dev nD) (t : Fin cfg0.N) :
    (dats m 0 c).flushed 4 t = ((cfg0.win 4).blk t).view.read (Elt Ideal) (Attn.attnArr (V m c main_arg0) (V m c main_arg1)) := by
  show (cfg0.win 4).cut (grid0.coords t) ((dats m 0 c).after 4 t) = _
  rw [after0_4]
  unfold out0_4
  rw [View.canon_unit_zero zero_offsets]
  simp only [View.ld_unit_zero (S := S1x256x64) zero_offsets, View.ld_unit_zero (S := S1x2048x64) zero_offsets]
  funext y
  show k0_pay2 (F := Ideal) (k0_pay5 (iblk m c 0 t) (iblk m c 1 t)) y
    = Attn.attnArr (V m c main_arg0) (V m c main_arg1) (((cfg0.win 4).blk t).view.emb y)
  have hy0 : (y 0).val < 1 := (y 0).isLt
  refine Block.attn_block (V m c main_arg0) (V m c main_arg1) (iblk m c 0 t) (iblk m c 1 t) (batch t)
    (win0_4.index t (1 : Fin 3) * 256) (rows_q m c t) (batch_k m c t) y (((cfg0.win 4).blk t).view.emb y) ?_ ?_ ?_
  · show win0_4.index t (0 : Fin 3) * 1 + 1 * (y 0).val = win0_4.index t (0 : Fin 3); omega
  · show win0_4.index t (1 : Fin 3) * 256 + 1 * (y 1).val = win0_4.index t (1 : Fin 3) * 256 + (y 1).val; omega
  · have h2 := (idx_facts t).2.2.2.2.2.2.2.2.2.2.2.2.2.2.2.2.2
    show win0_4.index t (2 : Fin 3) * 2048 + 1 * (y 2).val = (y 2).val; omega

/-- Point `t` writes back block `t` of the log-weights. -/
theorem flushed_logAttn (c : Dev nD) (t : Fin cfg0.N) :
    (dats m 0 c).flushed 5 t = ((cfg0.win 5).blk t).view.read (Elt Ideal) (Attn.logAttnArr (V m c main_arg0) (V m c main_arg1)) := by
  show (cfg0.win 5).cut (grid0.coords t) ((dats m 0 c).after 5 t) = _
  rw [after0_5]
  unfold out0_5
  rw [View.canon_unit_zero zero_offsets]
  simp only [View.ld_unit_zero (S := S1x256x64) zero_offsets, View.ld_unit_zero (S := S1x2048x64) zero_offsets]
  funext y
  show k0_pay3 (F := Ideal) (k0_pay4 (iblk m c 0 t) (iblk m c 1 t)) y
    = Attn.logAttnArr (V m c main_arg0) (V m c main_arg1) (((cfg0.win 5).blk t).view.emb y)
  have hy0 : (y 0).val < 1 := (y 0).isLt
  obtain ⟨-, -, -, -, -, -, -, -, -, -, -, -, f50, f51, f52, -⟩ := idx_facts t
  refine Block.logAttn_block (V m c main_arg0) (V m c main_arg1) (iblk m c 0 t) (iblk m c 1 t) (batch t)
    (win0_4.index t (1 : Fin 3) * 256) (rows_q m c t) (batch_k m c t) y (((cfg0.win 5).blk t).view.emb y) ?_ ?_ ?_
  · show win0_5.index t (0 : Fin 3) * 1 + 1 * (y 0).val = win0_4.index t (0 : Fin 3); omega
  · show win0_5.index t (1 : Fin 3) * 256 + 1 * (y 1).val = win0_4.index t (1 : Fin 3) * 256 + (y 1).val; omega
  · show win0_5.index t (2 : Fin 3) * 2048 + 1 * (y 2).val = (y 2).val; omega

/-- Point `t` writes back block `t` of the outputs. -/
theorem flushed_out (c : Dev nD) (t : Fin cfg0.N) :
    (dats m 0 c).flushed 3 t
      = ((cfg0.win 3).blk t).view.read (Elt Ideal) (Attn.outArr (V m c main_arg0) (V m c main_arg1) (V m c main_arg2)) := by
  show (cfg0.win 3).cut (grid0.coords t) ((dats m 0 c).after 3 t) = _
  rw [after0_3]
  unfold out0_3
  rw [View.canon_unit_zero zero_offsets]
  simp only [View.ld_unit_zero (S := S1x256x64) zero_offsets, View.ld_unit_zero (S := S1x2048x64) zero_offsets]
  funext y
  show k0_pay1 (F := Ideal) (k0_pay6 (iblk m c 0 t) (iblk m c 1 t)) (k0_pay7 (iblk m c 2 t)) (constant S256x64 .f32 0x00000000#32) y
    = Attn.outArr (V m c main_arg0) (V m c main_arg1) (V m c main_arg2) (((cfg0.win 3).blk t).view.emb y)
  have hy0 : (y 0).val < 1 := (y 0).isLt
  obtain ⟨-, -, -, -, -, -, -, -, -, f30, f31, f32, -⟩ := idx_facts t
  refine Block.out_block (V m c main_arg0) (V m c main_arg1) (V m c main_arg2) (iblk m c 0 t) (iblk m c 1 t) (iblk m c 2 t) (batch t)
    (win0_4.index t (1 : Fin 3) * 256) (rows_q m c t) (batch_k m c t) (batch_v m c t) y (((cfg0.win 3).blk t).view.emb y) ?_ ?_ ?_
  · show win0_3.index t (0 : Fin 3) * 1 + 1 * (y 0).val = win0_4.index t (0 : Fin 3); omega
  · show win0_3.index t (1 : Fin 3) * 256 + 1 * (y 1).val = win0_4.index t (1 : Fin 3) * 256 + (y 1).val; omega
  · show win0_3.index t (2 : Fin 3) * 64 + 1 * (y 2).val = (y 2).val; omega

/-! ## The blocks tile the arrays -/

theorem mem_blk3 (t : Fin cfg0.N) (i : S8x2048x64.Idx) :
    i ∈ ((cfg0.win 3).blk t).view.set ↔ ∀ a : Fin 3, win0_3.index t a * S1x256x64.size a ≤ (i a).val ∧ (i a).val < win0_3.index t a * S1x256x64.size a + S1x256x64.size a := by
  show i ∈ ((View.whole main_v0_0).slice (win0_3.rect t)).set ↔ _
  rw [View.set_slice_whole, Rect.mem_set_unit]
  exact Iff.rfl

theorem mem_blk4 (t : Fin cfg0.N) (i : S8x2048x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v0_1).slice (win0_4.rect t)).set ↔ _
  rw [View.set_slice_whole, Rect.mem_set_unit]
  exact Iff.rfl

theorem mem_blk5 (t : Fin cfg0.N) (i : S8x2048x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v0_2).slice (win0_5.rect t)).set ↔ _
  rw [View.set_slice_whole, Rect.mem_set_unit]
  exact Iff.rfl

/-- Every index of the outputs array is in the block of the point of its batch and query tile. -/
theorem cover3 (i : S8x2048x64.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 64 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  obtain ⟨-, -, -, -, -, -, -, -, -, f30, f31, f32, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- Every index of the weights array is in the block of the point of its batch and query tile. -/
theorem cover4 (i : S8x2048x2048.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- Every index of the log-weights array is in the block of the point of its batch and query tile. -/
theorem cover5 (i : S8x2048x2048.Idx) : ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  obtain ⟨-, -, -, -, -, -, -, -, -, -, -, -, f50, f51, f52, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-! ## The arrays after the run -/

theorem final_out (c : Dev nD) : (dats m 0 c).arrAt 3 cfg0.N
    = Attn.outArr (m ((c : Thread nD τ).loc main_arg0)) (m ((c : Thread nD τ).loc main_arg1)) (m ((c : Thread nD τ).loc main_arg2)) :=
  (dats m 0 c).arrAt_eq_of_cover 3 (Attn.outArr (V m c main_arg0) (V m c main_arg1) (V m c main_arg2))
    (fun t _ => flushed_out m c t) cover3

theorem final_attn (c : Dev nD) : (dats m 0 c).arrAt 4 cfg0.N
    = Attn.attnArr (m ((c : Thread nD τ).loc main_arg0)) (m ((c : Thread nD τ).loc main_arg1)) :=
  (dats m 0 c).arrAt_eq_of_cover 4 (Attn.attnArr (V m c main_arg0) (V m c main_arg1)) (fun t _ => flushed_attn m c t) cover4

theorem final_logAttn (c : Dev nD) : (dats m 0 c).arrAt 5 cfg0.N
    = Attn.logAttnArr (m ((c : Thread nD τ).loc main_arg0)) (m ((c : Thread nD τ).loc main_arg1)) :=
  (dats m 0 c).arrAt_eq_of_cover 5 (Attn.logAttnArr (V m c main_arg0) (V m c main_arg1)) (fun t _ => flushed_logAttn m c t) cover5

/-- The kernel's run: every weakly fair execution terminates with the three result arrays at the whole-array results of
    the arguments, the arguments unchanged. -/
theorem run : θ_run defs (onTc (τ := τ) (main (F := Ideal))) ⟨m, fun _ => 0, ρ⟩ fun r => ∀ c : Dev nD,
      r.2.mem ((c : Thread nD τ).loc main_v0_0)
        = Attn.outArr (m ((c : Thread nD τ).loc main_arg0)) (m ((c : Thread nD τ).loc main_arg1)) (m ((c : Thread nD τ).loc main_arg2))
      ∧ r.2.mem ((c : Thread nD τ).loc main_v0_1) = Attn.attnArr (m ((c : Thread nD τ).loc main_arg0)) (m ((c : Thread nD τ).loc main_arg1))
      ∧ r.2.mem ((c : Thread nD τ).loc main_v0_2) = Attn.logAttnArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_out m c), (h c).2.1.trans (final_attn m c),
      (h c).2.2.1.trans (final_logAttn m c), (h c).2.2.2⟩)
    (Cert.KernelIdeal.Value.run_blocks m ρ)

end Cert.KernelIdeal.KValue

end
-- ==== Proof.lean ====
/-
  The kernel and its reference compute one function at the ideal values.

  Both programs take queries, keys and values of shape [8, 2048, 64] and return, for every batch, the attention of the
  query rows over the key rows: rows scaled to unit norm (the norm floored at the f32 nearest 1e-12), inner products over the
  temperature 25, the log-softmax along the keys computed from the scores shifted by their maximum, the weights as its
  exponential, and the weights against the value rows. The kernel does this one tile of 256 query rows at a time against
  the whole key and value blocks of the tile's batch; the reference does it on the whole arrays, batch by batch.
  On the extended reals every operation of the two is the same exact function (a change of float format is the identity,
  a product into a zero accumulator is the plain sum, a sum or a maximum over an axis does not depend on the order), so
  each result, index by index, is the same composition of those functions of the same rows: `Attn.outArr`,
  `Attn.attnArr`, `Attn.logAttnArr`. No law of real arithmetic is needed and the finiteness of the inputs is not used.

  The frames are the generated ones (the reference's is its run with the results dropped); the idealization rewrote no
  operation, so the preservation claim is trivial; the algebraic claim sets the kernel's run (its 64 written blocks tile
  each result array) beside the reference's run read stage by stage.
-/
import proofs.«135573_j549755814004_1_alg».proof.Defs
import proofs.«135573_j549755814004_1_alg».proof.Proof.Gen.Kernel
import proofs.«135573_j549755814004_1_alg».proof.Proof.Gen.Kernel.Skeleton
import proofs.«135573_j549755814004_1_alg».proof.Proof.Gen.Kernel.Launch
import proofs.«135573_j549755814004_1_alg».proof.Proof.Gen.Kernel.Points
import proofs.«135573_j549755814004_1_alg».proof.Proof.Gen.Kernel.Frame
import proofs.«135573_j549755814004_1_alg».proof.Proof.Gen.KernelIdeal
import proofs.«135573_j549755814004_1_alg».proof.Proof.Gen.KernelIdeal.Skeleton
import proofs.«135573_j549755814004_1_alg».proof.Proof.Gen.KernelIdeal.Launch
import proofs.«135573_j549755814004_1_alg».proof.Proof.Gen.KernelIdeal.Points
import proofs.«135573_j549755814004_1_alg».proof.Proof.Gen.KernelIdeal.Frame
import proofs.«135573_j549755814004_1_alg».proof.Proof.Gen.ReferenceIdeal
import proofs.«135573_j549755814004_1_alg».proof.Proof.Gen.Pre_finite_inputs
import proofs.«135573_j549755814004_1_alg».proof.Proof.Gen.KernelIdeal.Value
import proofs.«135573_j549755814004_1_alg».proof.Proof.RefRun
import proofs.«135573_j549755814004_1_alg».proof.Proof.RefRead
import proofs.«135573_j549755814004_1_alg».proof.Proof.RefValue
import proofs.«135573_j549755814004_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the three results dropped. -/
theorem frame_referenceIdeal : Cert.frame_ReferenceIdeal := fun m ρ _ =>
  (θ_run Cert.ReferenceIdeal.defs _ _).mono (fun _ h c => (h c).2.2.2) (Cert.ReferenceIdeal.ValueP.run (F := Ideal) m ρ)

/-- From memories that agree on the three arguments, the kernel's three result arrays and the reference's are the same
    whole-array functions of the arguments. -/
theorem algebraic : Cert.algebraic_KernelIdeal_ReferenceIdeal := by
  intro m ρ m' ρ' _ hagree
  refine ⟨_, _, _, Cert.KernelIdeal.KValue.run m ρ, ?_⟩
  refine (θ_run Cert.ReferenceIdeal.defs _ _).mono (fun _ h c => ⟨?_, ?_, ?_, (h c).2.2.2⟩)
    (Cert.ReferenceIdeal.ValueP.run (F := Ideal) m' ρ')
  · rw [(h c).1, Cert.ReferenceIdeal.ReadP.val_main_v21_eq, Cert.ReferenceIdeal.RefValue.out_eq,
      (hagree c).1, (hagree c).2.1, (hagree c).2.2]
  · rw [(h c).2.1, Cert.ReferenceIdeal.ReadP.val_main_v20_eq, Cert.ReferenceIdeal.RefValue.attn_eq,
      (hagree c).1, (hagree c).2.1]
  · rw [(h c).2.2.1, Cert.ReferenceIdeal.ReadP.val_main_v19_eq, Cert.ReferenceIdeal.RefValue.logAttn_eq,
      (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
